-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v10)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v10) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v20) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x1024 : Shape := ⟨2, ![16384, 1024]⟩
abbrev S4096x1024 : Shape := ⟨2, ![4096, 1024]⟩
abbrev S4096 : Shape := ⟨1, ![4096]⟩
abbrev S_ : Shape := ⟨0, ![]⟩

class Facts : Prop where
  bcast_S_S16384x1024 : S_.BroadcastsInDim S16384x1024 (![] : Fin 0 → Fin S16384x1024.rank)
  reducesTo_S16384x1024_S_d0_1 : S16384x1024.ReducesTo [0, 1] S_
  h_S_ : 0 < S_.numel
  bcast_S_S4096x1024 : S_.BroadcastsInDim S4096x1024 (![] : Fin 0 → Fin S4096x1024.rank)
  reducesTo_S4096x1024_S_d0_1 : S4096x1024.ReducesTo [0, 1] S_
  bcast_S_S4096 : S_.BroadcastsInDim S4096 (![] : Fin 0 → Fin S4096.rank)
  reducesTo_S4096_S_d0 : S4096.ReducesTo [0] S_

variable [Facts]

def fn {F : FTy → Type} [FloatOps F] (main_arg0 : FVec F S16384x1024 .f32) (main_arg1 : FVec F S4096x1024 .f32) (main_arg2 : FVec F S4096 .f32) : IVec S_ 1 :=
  let main_v0 : FVec F S16384x1024 .f32 := Host.absf main_arg0
  let main_cst : FVec F S_ .f32 := constant S_ .f32 0x7F800000#32
  let main_v1 : FVec F S16384x1024 .f32 := broadcastInDim S16384x1024 ![] bcast_S_S16384x1024 main_cst
  let main_v2 : IVec S16384x1024 1 := cmpf .olt main_v0 main_v1
  let main_c : IVec S_ 1 := constantI S_ 1 1#1
  let main_v3 : IVec S_ 1 := (fun x v => Host.reduce IntOp.andi x v reducesTo_S16384x1024_S_d0_1 h_S_) main_v2 main_c
  let main_v4 : FVec F S4096x1024 .f32 := Host.absf main_arg1
  let main_cst_0 : FVec F S_ .f32 := constant S_ .f32 0x7F800000#32
  let main_v5 : FVec F S4096x1024 .f32 := broadcastInDim S4096x1024 ![] bcast_S_S4096x1024 main_cst_0
  let main_v6 : IVec S4096x1024 1 := cmpf .olt main_v4 main_v5
  let main_c_1 : IVec S_ 1 := constantI S_ 1 1#1
  let main_v7 : IVec S_ 1 := (fun x v => Host.reduce IntOp.andi x v reducesTo_S4096x1024_S_d0_1 h_S_) main_v6 main_c_1
  let main_v8 : IVec S_ 1 := andi main_v3 main_v7
  let main_v9 : FVec F S4096 .f32 := Host.absf main_arg2
  let main_cst_2 : FVec F S_ .f32 := constant S_ .f32 0x7F800000#32
  let main_v10 : FVec F S4096 .f32 := broadcastInDim S4096 ![] bcast_S_S4096 main_cst_2
  let main_v11 : IVec S4096 1 := cmpf .olt main_v9 main_v10
  let main_c_3 : IVec S_ 1 := constantI S_ 1 1#1
  let main_v12 : IVec S_ 1 := (fun x v => Host.reduce IntOp.andi x v reducesTo_S4096_S_d0 h_S_) main_v11 main_c_3
  let main_v13 : IVec S_ 1 := andi main_v8 main_v12
  main_v13
-- ==== Kernel.lean ====
abbrev S16384x1024 : Shape := ⟨2, ![16384, 1024]⟩
abbrev S4096x1024 : Shape := ⟨2, ![4096, 1024]⟩
abbrev S4096 : Shape := ⟨1, ![4096]⟩
abbrev S_ : Shape := ⟨0, ![]⟩
abbrev S16384 : Shape := ⟨1, ![16384]⟩
abbrev S16384x1 : Shape := ⟨2, ![16384, 1]⟩
abbrev S4096x1 : Shape := ⟨2, ![4096, 1]⟩
abbrev S1x4096 : Shape := ⟨2, ![1, 4096]⟩
abbrev S16384x4096 : Shape := ⟨2, ![16384, 4096]⟩
abbrev S2048x1024 : Shape := ⟨2, ![2048, 1024]⟩
abbrev S512x1024 : Shape := ⟨2, ![512, 1024]⟩
abbrev S2048x1 : Shape := ⟨2, ![2048, 1]⟩
abbrev S1x512 : Shape := ⟨2, ![1, 512]⟩
abbrev S2048x512 : Shape := ⟨2, ![2048, 512]⟩

abbrev nBuf : Space → Nat
  | .hbm => 16
  | .vmem => 12
  | .smem => 0
  | _ => 0

abbrev bufTy : (tb : Table) → Fin (tcTables nBuf tb) → BufTy
  | .hbm, ⟨0, _⟩ => ⟨S16384x1024, .f32⟩
  | .hbm, ⟨1, _⟩ => ⟨S4096x1024, .f32⟩
  | .hbm, ⟨2, _⟩ => ⟨S4096, .f32⟩
  | .hbm, ⟨3, _⟩ => ⟨S16384x1024, .f32⟩
  | .hbm, ⟨4, _⟩ => ⟨S_, .f32⟩
  | .hbm, ⟨5, _⟩ => ⟨S16384, .f32⟩
  | .hbm, ⟨6, _⟩ => ⟨S16384x1, .f32⟩
  | .hbm, ⟨7, _⟩ => ⟨S4096x1024, .f32⟩
  | .hbm, ⟨8, _⟩ => ⟨S_, .f32⟩
  | .hbm, ⟨9, _⟩ => ⟨S4096, .f32⟩
  | .hbm, ⟨10, _⟩ => ⟨S4096x1, .f32⟩
  | .hbm, ⟨11, _⟩ => ⟨S1x4096, .f32⟩
  | .hbm, ⟨12, _⟩ => ⟨S1x4096, .f32⟩
  | .hbm, ⟨13, _⟩ => ⟨S16384x1024, .bf16⟩
  | .hbm, ⟨14, _⟩ => ⟨S4096x1024, .bf16⟩
  | .hbm, ⟨15, _⟩ => ⟨S16384x4096, .f32⟩
  | .local _ .vmem, ⟨0, _⟩ => ⟨S2048x1024, .bf16⟩
  | .local _ .vmem, ⟨1, _⟩ => ⟨S2048x1024, .bf16⟩
  | .local _ .vmem, ⟨2, _⟩ => ⟨S512x1024, .bf16⟩
  | .local _ .vmem, ⟨3, _⟩ => ⟨S512x1024, .bf16⟩
  | .local _ .vmem, ⟨4, _⟩ => ⟨S2048x1, .f32⟩
  | .local _ .vmem, ⟨5, _⟩ => ⟨S2048x1, .f32⟩
  | .local _ .vmem, ⟨6, _⟩ => ⟨S1x512, .f32⟩
  | .local _ .vmem, ⟨7, _⟩ => ⟨S1x512, .f32⟩
  | .local _ .vmem, ⟨8, _⟩ => ⟨S1x512, .f32⟩
  | .local _ .vmem, ⟨9, _⟩ => ⟨S1x512, .f32⟩
  | .local _ .vmem, ⟨10, _⟩ => ⟨S2048x512, .f32⟩
  | .local _ .vmem, ⟨11, _⟩ => ⟨S2048x512, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![8, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S2048x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S2048x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

class Facts₀ : Prop where
  reducesTo_S16384x1024_S16384_d1 : S16384x1024.ReducesTo [1] S16384
  h_S_ : 0 < S_.numel
  bcast_S16384_S16384x1_0 : S16384.BroadcastsInDim S16384x1 (![0] : Fin 1 → Fin S16384x1.rank)
  reducesTo_S4096x1024_S4096_d1 : S4096x1024.ReducesTo [1] S4096
  bcast_S4096_S4096x1_0 : S4096.BroadcastsInDim S4096x1 (![0] : Fin 1 → Fin S4096x1.rank)
  shapeCasts_S4096x1_S1x4096 : S4096x1.ShapeCasts S1x4096
  shapeCasts_S4096_S1x4096 : S4096.ShapeCasts S1x4096
  bitsLt_bf16_f32 : FTy.bits .bf16 < FTy.bits .f32
  inb_S2048x1024_S2048x1024_0_0 : ∀ a, (![0, 0] : Fin 2 → Nat) a + S2048x1024.size a ≤ S2048x1024.size a
  h_S2048x1024 : 0 < S2048x1024.numel
  shapeCasts_S2048x1024_S2048x1024 : S2048x1024.ShapeCasts S2048x1024
  inb_S512x1024_S512x1024_0_0 : ∀ a, (![0, 0] : Fin 2 → Nat) a + S512x1024.size a ≤ S512x1024.size a
  h_S512x1024 : 0 < S512x1024.numel
  shapeCasts_S512x1024_S512x1024 : S512x1024.ShapeCasts S512x1024
  inb_S2048x1_S2048x1_0_0 : ∀ a, (![0, 0] : Fin 2 → Nat) a + S2048x1.size a ≤ S2048x1.size a
  h_S2048x1 : 0 < S2048x1.numel
  shapeCasts_S2048x1_S2048x1 : S2048x1.ShapeCasts S2048x1
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S2048x1_S2048x512 : S2048x1.Broadcasts S2048x512
  broadcasts_S1x512_S2048x512 : S1x512.Broadcasts S2048x512
  inb_S2048x512_S2048x512_0_0 : ∀ a, (![0, 0] : Fin 2 → Nat) a + S2048x512.size a ≤ S2048x512.size a
  h_S2048x512 : 0 < S2048x512.numel
  dot_S2048x1024_S512x1024_S2048x512_1_1_0_0_n_n_wf : DotDims.WF S2048x1024 S512x1024 S2048x512 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x1024.size a ≤ S16384x1024.size a
  hwx0_0 : ∀ i : grid0.Coords, EltTy.bits .bf16 = 32 ∨ (Rect.block (s := S16384x1024) S2048x1024.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x1024.size a ≤ S4096x1024.size a
  hwx0_1 : ∀ i : grid0.Coords, EltTy.bits .bf16 = 32 ∨ (Rect.block (s := S4096x1024) S512x1024.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2048x1.size a ≤ S16384x1.size a
  hwx0_2 : ∀ i : grid0.Coords, EltTy.bits .f32 = 32 ∨ (Rect.block (s := S16384x1) S2048x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x512.size a ≤ S1x4096.size a
  hwx0_3 : ∀ i : grid0.Coords, EltTy.bits .f32 = 32 ∨ (Rect.block (s := S1x4096) S1x512.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x512.size a ≤ S1x4096.size a
  hwx0_4 : ∀ i : grid0.Coords, EltTy.bits .f32 = 32 ∨ (Rect.block (s := S1x4096) S1x512.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S2048x512.size a ≤ S16384x4096.size a
  hwx0_5 : ∀ i : grid0.Coords, EltTy.bits .f32 = 32 ∨ (Rect.block (s := S16384x4096) S2048x512.size (cc0_transform_5 i) (hinb0_5 i)).WholeWords (EltTy.packing .f32)

variable [Facts₀]

def dot_S2048x1024_S512x1024_S2048x512_1_1_0_0_n_n : DotDims S2048x1024 S512x1024 S2048x512 where
  lhsContracting := [1]
  rhsContracting := [1]
  lhsNonContracting := [0]
  rhsNonContracting := [0]
  lhsBatch := []
  rhsBatch := []
  wf := dot_S2048x1024_S512x1024_S2048x512_1_1_0_0_n_n_wf

abbrev win0_0 : Pipeline.Window sig grid0 :=
  Pipeline.Window.ofSpec (Memref.whole main_v8) S2048x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v9) S512x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S2048x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v6) S1x512.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v7) S1x512.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v10) S2048x512.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S16384x1024 : Shape := ⟨2, ![16384, 1024]⟩
abbrev S4096x1024 : Shape := ⟨2, ![4096, 1024]⟩
abbrev S4096 : Shape := ⟨1, ![4096]⟩
abbrev S_ : Shape := ⟨0, ![]⟩
abbrev S16384 : Shape := ⟨1, ![16384]⟩
abbrev S16384x1 : Shape := ⟨2, ![16384, 1]⟩
abbrev S1024x4096 : Shape := ⟨2, ![1024, 4096]⟩
abbrev S16384x4096 : Shape := ⟨2, ![16384, 4096]⟩
abbrev S1x4096 : Shape := ⟨2, ![1, 4096]⟩

abbrev nBuf : Space → Nat
  | .hbm => 28
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S4096x1024, .f32⟩
  | .hbm, ⟨2, _⟩ => ⟨S4096, .f32⟩
  | .hbm, ⟨3, _⟩ => ⟨S16384x1024, .f32⟩
  | .hbm, ⟨4, _⟩ => ⟨S_, .f32⟩
  | .hbm, ⟨5, _⟩ => ⟨S16384, .f32⟩
  | .hbm, ⟨6, _⟩ => ⟨S16384x1, .f32⟩
  | .hbm, ⟨7, _⟩ => ⟨S4096x1024, .f32⟩
  | .hbm, ⟨8, _⟩ => ⟨S_, .f32⟩
  | .hbm, ⟨9, _⟩ => ⟨S4096, .f32⟩
  | .hbm, ⟨10, _⟩ => ⟨S1024x4096, .f32⟩
  | .hbm, ⟨11, _⟩ => ⟨S16384x4096, .f32⟩
  | .hbm, ⟨12, _⟩ => ⟨S1x4096, .f32⟩
  | .hbm, ⟨13, _⟩ => ⟨S16384x4096, .f32⟩
  | .hbm, ⟨14, _⟩ => ⟨S16384x4096, .f32⟩
  | .hbm, ⟨15, _⟩ => ⟨S16384x4096, .f32⟩
  | .hbm, ⟨16, _⟩ => ⟨S_, .f32⟩
  | .hbm, ⟨17, _⟩ => ⟨S16384x4096, .f32⟩
  | .hbm, ⟨18, _⟩ => ⟨S16384x4096, .f32⟩
  | .hbm, ⟨19, _⟩ => ⟨S16384x4096, .f32⟩
  | .hbm, ⟨20, _⟩ => ⟨S_, .f32⟩
  | .hbm, ⟨21, _⟩ => ⟨S16384x4096, .f32⟩
  | .hbm, ⟨22, _⟩ => ⟨S16384x4096, .f32⟩
  | .hbm, ⟨23, _⟩ => ⟨S1x4096, .f32⟩
  | .hbm, ⟨24, _⟩ => ⟨S1x4096, .f32⟩
  | .hbm, ⟨25, _⟩ => ⟨S16384x4096, .f32⟩
  | .hbm, ⟨26, _⟩ => ⟨S16384x4096, .f32⟩
  | .hbm, ⟨27, _⟩ => ⟨S16384x4096, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_cst_1 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_cst_2 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩

abbrev nD : Nat := 1
abbrev τ : Topo := Topo.v7x

variable {F : FTy → Type} [FloatOps F]

class Facts₀ : Prop where
  reducesTo_S16384x1024_S16384_d1 : S16384x1024.ReducesTo [1] S16384
  h_S_ : 0 < S_.numel
  bcast_S16384_S16384x1_0 : S16384.BroadcastsInDim S16384x1 (![0] : Fin 1 → Fin S16384x1.rank)
  reducesTo_S4096x1024_S4096_d1 : S4096x1024.ReducesTo [1] S4096
  transposes_S4096x1024_S1024x4096_1_0 : S4096x1024.Transposes [1, 0] S1024x4096
  bcast_S4096_S1x4096_1 : S4096.BroadcastsInDim S1x4096 (![1] : Fin 1 → Fin S1x4096.rank)
  bcast_S16384x1_S16384x4096_0_1 : S16384x1.BroadcastsInDim S16384x4096 (![0, 1] : Fin 2 → Fin S16384x4096.rank)
  bcast_S1x4096_S16384x4096_0_1 : S1x4096.BroadcastsInDim S16384x4096 (![0, 1] : Fin 2 → Fin S16384x4096.rank)
  bcast_S_S16384x4096 : S_.BroadcastsInDim S16384x4096 (![] : Fin 0 → Fin S16384x4096.rank)
  dot_S16384x1024_S1024x4096_S16384x4096_1_0_0_1_n_n_wf : DotDims.WF S16384x1024 S1024x4096 S16384x4096 [1] [0] [0] [1] [] []

variable [Facts₀]

def dot_S16384x1024_S1024x4096_S16384x4096_1_0_0_1_n_n : DotDims S16384x1024 S1024x4096 S16384x4096 where
  lhsContracting := [1]
  rhsContracting := [0]
  lhsNonContracting := [0]
  rhsNonContracting := [1]
  lhsBatch := []
  rhsBatch := []
  wf := dot_S16384x1024_S1024x4096_S16384x4096_1_0_0_1_n_n_wf

class Facts : Prop extends Facts₀ where

variable [Facts]
-- ==== Proof.RbfSpec.lean ====
/-
  THE FUNCTION BOTH PROGRAMS COMPUTE. For a batch `x` of 16384 points in 1024 dimensions, 4096 centres `c` and one
  width `β` per centre, the Gaussian radial-basis response of point `p` to centre `q` is
      exp (-β_q · max (‖x_p‖² + ‖c_q‖² − 2 · ⟨x_p, c_q⟩, 0)),
  the squared distance written by its expansion and clamped at zero before it is scaled. Everything is read on the
  extended reals, where each operation is the exact one; the squared lengths are row sums that start from the
  zero the summation is given, the inner product is a plain sum over the 1024 coordinates, and the literals `0` and
  `2` stay the bit patterns the programs print (the same words on both sides, so they are never evaluated).
  No program is mentioned here: the kernel's side and the reference's side are each shown equal to `rbf`.
-/
import Idealize.ShloMosaic.PureOps.Ideal
import Idealize.ShloMosaic.PureOps.Ideal.Laws
import Idealize.ShloMosaic.Lib.ValueIdx

noncomputable section

namespace Cert.Rbf

open Idealize.ShloMosaic Idealize.ShloMosaic.ValueIdx

/-- The squared length of row `r` of a matrix with 1024 columns, as a row sum spells it: the zero the summation starts
    from, plus the sum over the columns of the entry times itself. -/
def rowSq {n : Nat} (a : (⟨2, ![n, 1024]⟩ : Shape).Idx → EReal) (r : Fin n) : EReal :=
  Ideal.ofBits .f32 0x00000000#32 + ∑ k : Fin 1024, a (ix2 r k) * a (ix2 r k)

/-- The inner product of row `p` of the points with row `q` of the centres. -/
def rowDot (x : (⟨2, ![16384, 1024]⟩ : Shape).Idx → EReal) (c : (⟨2, ![4096, 1024]⟩ : Shape).Idx → EReal)
    (p : Fin 16384) (q : Fin 4096) : EReal :=
  ∑ k : Fin 1024, x (ix2 p k) * c (ix2 q k)

/-- The response of point `p` to centre `q`: the expanded squared distance, clamped below at zero, scaled by minus the
    centre's width, exponentiated. -/
def rbfAt (x : (⟨2, ![16384, 1024]⟩ : Shape).Idx → EReal) (c : (⟨2, ![4096, 1024]⟩ : Shape).Idx → EReal)
    (β : (⟨1, ![4096]⟩ : Shape).Idx → EReal) (p : Fin 16384) (q : Fin 4096) : EReal :=
  Ideal.exp ((-(β (ix1 q))) * max ((rowSq x p + rowSq c q) - Ideal.ofBits .f32 0x40000000#32 * rowDot x c p q)
    (Ideal.ofBits .f32 0x00000000#32))

/-- The whole [16384, 4096] array of responses. -/
def rbf (x : (⟨2, ![16384, 1024]⟩ : Shape).Idx → EReal) (c : (⟨2, ![4096, 1024]⟩ : Shape).Idx → EReal)
    (β : (⟨1, ![4096]⟩ : Shape).Idx → EReal) : (⟨2, ![16384, 4096]⟩ : Shape).Idx → EReal :=
  fun i => rbfAt x c β (i 0) (i 1)

theorem rbf_apply (x : (⟨2, ![16384, 1024]⟩ : Shape).Idx → EReal) (c : (⟨2, ![4096, 1024]⟩ : Shape).Idx → EReal)
    (β : (⟨1, ![4096]⟩ : Shape).Idx → EReal) (p : Fin 16384) (q : Fin 4096) :
    rbf x c β (ix2 p q) = rbfAt x c β p q := rfl

/-- A host sum of squares along the columns, read at row `r`: on the extended reals the host's sum over one axis is
    the initial value plus the sum over that axis's coordinates, and the index it inserts coordinate `k` into is
    `(r, k)`. Stated for whatever witnesses of the shape facts the printed operation carries. -/
theorem hostRowSq {n : Nat} (a : (⟨2, ![n, 1024]⟩ : Shape).Idx → EReal)
    (h' : (⟨2, ![n, 1024]⟩ : Shape).ReducesTo [1] ⟨1, ![n]⟩) (h : (⟨2, ![n, 1024]⟩ : Shape).Reduces [1] ⟨1, ![n]⟩)
    (hu : 0 < (⟨0, ![]⟩ : Shape).numel) (r : Fin n) :
    Host.reduceAdd (F := Ideal) (φ := .f32) (mulf (F := Ideal) (φ := .f32) a a)
      (constant (F := Ideal) ⟨0, ![]⟩ .f32 0x00000000#32) h' hu (ix1 r) = rowSq a r := by
  unfold rowSq
  simp only [Host.reduceAdd, Ideal.hostReduceAdd_def]
  rw [Ideal.hostReduceAdd_single h' h]
  refine congrArg (_ + ·) (Finset.sum_congr rfl fun k _ => ?_)
  have e : h.lift (ix1 r) k = ix2 r k :=
    funext fun d => Fin.ext (by match d with | ⟨0, _⟩ => rfl | ⟨1, _⟩ => rfl)
  rw [e]
  rfl

end Cert.Rbf

end
-- ==== Proof.KernelHost.lean ====
/-
  WHAT THE KERNEL'S TILES ARE CUT FROM. Before the grid runs, the host side prepares five arrays from the three
  arguments: the points and the centres with their format changed (the identity on the extended reals), the points'
  squared lengths kept as a column [16384, 1], and the centres' squared lengths and the widths laid out as rows
  [1, 4096] by a reshape. Read at coordinates: the two matrices are the arguments themselves; the column at
  `(p, 0)` is the row sum of squares of point `p`; the row of squared lengths at `(0, q)` is the column [4096, 1] at
  `(q, 0)` (same row-major position), which is the row sum of squares of centre `q`; the row of widths at `(0, q)` is
  the width of centre `q`.
-/
import proofs.«167875_j56461640073237_2_alg».proof.Proof.Gen.KernelIdeal.Frame
import proofs.«167875_j56461640073237_2_alg».proof.Proof.RbfSpec
import Idealize.ShloMosaic.Lib.ValueLayout
import Idealize.ShloMosaic.Lib.StableHlo.Run

noncomputable section

namespace Cert.Rbf.Kernel

open Cert.KernelIdeal Cert.KernelIdeal.Gen Idealize.ShloMosaic Idealize.ShloMosaic.TcCoe Idealize.SL.Sem
open Idealize.ShloMosaic.ValueIdx Idealize.ShloMosaic.StableHlo Cert.Rbf

variable (m : (ℓ : Loc nD τ sig) → Buf (Elt Ideal) ℓ)

/-- The three arguments as launched, on core `c`: points, centres, widths. -/
abbrev argPoints (c : Dev nD) : (⟨2, ![16384, 1024]⟩ : Shape).Idx → EReal := m ((c : Thread nD τ).loc main_arg0)
abbrev argCentres (c : Dev nD) : (⟨2, ![4096, 1024]⟩ : Shape).Idx → EReal := m ((c : Thread nD τ).loc main_arg1)
abbrev argWidths (c : Dev nD) : (⟨1, ![4096]⟩ : Shape).Idx → EReal := m ((c : Thread nD τ).loc main_arg2)

/-- The points the grid reads are the points as launched: the change of format is the identity. -/
theorem entryPoints (c : Dev nD) : (V m c main_v8 : S16384x1024.Idx → EReal) = argPoints m c := by
  dsimp only [Gen.V, Gen.hostOps0]; after_results <;> rfl

/-- Likewise the centres. -/
theorem entryCentres (c : Dev nD) : (V m c main_v9 : S4096x1024.Idx → EReal) = argCentres m c := by
  dsimp only [Gen.V, Gen.hostOps0]; after_results <;> rfl

/-- The column of the points' squared lengths, at `(p, 0)`. -/
theorem entryPointSq (c : Dev nD) (p : Fin 16384) (u : Fin 1) :
    (V m c main_v2 : S16384x1.Idx → EReal) (ix2 p u) = rowSq (argPoints m c) p := by
  have e : (V m c main_v2 : S16384x1.Idx → EReal) = broadcastInDim S16384x1 ![0] bcast_S16384_S16384x1_0
      (Host.reduceAdd (F := Ideal) (φ := .f32) (mulf (F := Ideal) (φ := .f32) (argPoints m c) (argPoints m c))
        (constant (F := Ideal) S_ .f32 0x00000000#32) reducesTo_S16384x1024_S16384_d1 h_S_) := by
    dsimp only [Gen.V, Gen.hostOps0]; after_results <;> rfl
  rw [e]
  refine (broadcastInDim_apply _ bcast_S16384_S16384x1_0 _ (ix2 p u) (ix1 p) (fun a => match a with
    | ⟨0, _⟩ => by show p.val = if (16384 : Nat) = 1 then 0 else p.val; rw [if_neg (by decide)])).trans ?_
  exact hostRowSq (argPoints m c) reducesTo_S16384x1024_S16384_d1 (by decide) h_S_ p

/-- The row of the centres' squared lengths, at `(0, q)`: the reshape keeps the row-major position, so it reads the
    column at `(q, 0)`. -/
theorem entryCentreSq (c : Dev nD) (u : Fin 1) (q : Fin 4096) :
    (V m c main_v6 : S1x4096.Idx → EReal) (ix2 u q) = rowSq (argCentres m c) q := by
  have e : (V m c main_v6 : S1x4096.Idx → EReal) = shapeCast S1x4096 (broadcastInDim S4096x1 ![0] bcast_S4096_S4096x1_0
      (Host.reduceAdd (F := Ideal) (φ := .f32) (mulf (F := Ideal) (φ := .f32) (argCentres m c) (argCentres m c))
        (constant (F := Ideal) S_ .f32 0x00000000#32) reducesTo_S4096x1024_S4096_d1 h_S_)) shapeCasts_S4096x1_S1x4096 := by
    dsimp only [Gen.V, Gen.hostOps0]; after_results <;> rfl
  rw [e]
  refine (shapeCast_apply _ shapeCasts_S4096x1_S1x4096 (ix2 u q) (ix2 q (0 : Fin 1)) (by
    have hu : u.val = 0 := by omega
    rw [Shape.rowMajor_val_two, Shape.rowMajor_val_two]
    show q.val * 1 + 0 = u.val * 4096 + q.val
    omega)).trans ?_
  refine (broadcastInDim_apply _ bcast_S4096_S4096x1_0 _ (ix2 q (0 : Fin 1)) (ix1 q) (fun a => match a with
    | ⟨0, _⟩ => by show q.val = if (4096 : Nat) = 1 then 0 else q.val; rw [if_neg (by decide)])).trans ?_
  exact hostRowSq (argCentres m c) reducesTo_S4096x1024_S4096_d1 (by decide) h_S_ q

/-- The row of widths, at `(0, q)`. -/
theorem entryWidths (c : Dev nD) (u : Fin 1) (q : Fin 4096) :
    (V m c main_v7 : S1x4096.Idx → EReal) (ix2 u q) = argWidths m c (ix1 q) := by
  have e : (V m c main_v7 : S1x4096.Idx → EReal) = shapeCast S1x4096 (argWidths m c) shapeCasts_S4096_S1x4096 := by
    dsimp only [Gen.V, Gen.hostOps0]; after_results <;> rfl
  rw [e]
  exact shapeCast_a_1a_apply _ _ u q

end Cert.Rbf.Kernel

end
-- ==== Proof.LibColumnLayout.lean ====
/-
  COLUMN FORMS OF THE LAYOUT OPERATIONS, READ AT AN INDEX GIVEN BY COORDINATES. A sum over the last axis kept as a
  column (`keepdims`) is a vector `[a]` cast to `[a, 1]` and then broadcast along the new unit axis to `[a, b]`:
  at `(i, j)` both read the vector at `i`. The two lemmas below say so for indices written `ix1` / `ix2`, for any
  element type and any extents; they are the column counterparts of the row forms `shapeCast_a_1a_apply` and
  `broadcastTo_1b_ab_apply`.
-/
import Idealize.ShloMosaic.Lib.Pipeline.Value
import Idealize.ShloMosaic.Lib.ValueIdx

namespace Idealize.ShloMosaic.ColumnLayout

open Idealize.ShloMosaic Idealize.ShloMosaic.ValueIdx

variable {α : Type}

/-- An `[a]` array cast to the column `[a, 1]` reads, at `(i, u)`, the operand at `i`, whatever the unit coordinate
    `u`: the two row-major positions are `i` and `i * 1 + u` with `u = 0`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(i, j)`, the column's entry in row `i`. -/
theorem broadcastTo_a1_ab_apply {a b : ℕ} (v : (⟨2, ![a, 1]⟩ : Shape).Idx → α) (h : (⟨2, ![a, 1]⟩ : Shape).Broadcasts ⟨2, ![a, b]⟩)
    (i : Fin a) (j : Fin b) : broadcastTo ⟨2, ![a, b]⟩ v h (ix2 i j) = v (ix2 i (0 : Fin 1)) := by
  refine broadcastTo_apply v h (ix2 i j) (ix2 i (0 : Fin 1)) fun ax => ?_
  match ax with
  | ⟨0, _⟩ =>
    show i.val = if a = 1 then 0 else i.val
    split
    · have := i.isLt; omega
    · rfl
  | ⟨1, _⟩ => rfl

end Idealize.ShloMosaic.ColumnLayout
-- ==== Proof.KernelBody.lean ====
/-
  ONE TILE OF THE KERNEL, READ AT AN ENTRY. At a grid point the body holds a [2048, 1024] block of points, a
  [512, 1024] block of centres, the points' squared lengths as a column [2048, 1], and the centres' squared lengths
  and widths as rows [1, 512]. It contracts the two matrix blocks over their 1024 columns into a zero accumulator,
  broadcasts the column along the rows and the rows along the columns, and works entry by entry. At the entry
  `(p, q)` of the tile that is
      exp ((0 − β_q) · max ((a_p + b_q) − 2 · Σ_k X_{p,k} · C_{q,k}, 0)),
  each layout step naming one entry of its operand: the identity casts nothing, the column read at `(p, 0)`, a row
  at `(0, q)`, the contraction at `(p, k)` and `(q, k)`.
-/
import proofs.«167875_j56461640073237_2_alg».proof.Proof.Gen.KernelIdeal.Skeleton
import proofs.«167875_j56461640073237_2_alg».proof.Proof.LibColumnLayout
import Idealize.ShloMosaic.Lib.ValueLayout
import Idealize.ShloMosaic.PureOps.Ideal.Laws

noncomputable section

namespace Cert.Rbf.Kernel

open Cert.KernelIdeal Cert.KernelIdeal.Gen Idealize.ShloMosaic Idealize.ShloMosaic.ValueIdx
open Idealize.ShloMosaic.ColumnLayout

/-- The exponential of a vector, at an entry, is the extended reals' exponential of that entry. -/
theorem exp_apply {s : Shape} {φ : FTy} (v : FVec Ideal s φ) (i : s.Idx) : exp v i = Ideal.exp (v i) := rfl

/-- The tile's contraction: both operands contract their second axis and keep their first. -/
abbrev tileDims : DotDims S2048x1024 S512x1024 S2048x512 := dot_S2048x1024_S512x1024_S2048x512_1_1_0_0_n_n

/-- The left operand's index at output entry `i` and contraction index `κ`: row `i 0`, column `κ`. -/
theorem tileDims_lhs0 (i : S2048x512.Idx) (κ : tileDims.contr.Idx) : (tileDims.lhsIdx i κ 0).val = (i 0).val := by
  unfold DotDims.lhsIdx
  rw [dif_neg (show ¬(0 : Fin S2048x1024.rank) ∈ tileDims.lhsBatch by decide),
    dif_pos (show (0 : Fin S2048x1024.rank) ∈ tileDims.lhsNonContracting by decide)]
  rfl
theorem tileDims_lhs1 (i : S2048x512.Idx) (κ : tileDims.contr.Idx) :
    (tileDims.lhsIdx i κ 1).val = (κ ⟨0, by decide⟩).val :=
  tileDims.lhsIdx_val_of_single rfl i κ
/-- The right operand's: row `i 1`, column `κ`. -/
theorem tileDims_rhs0 (i : S2048x512.Idx) (κ : tileDims.contr.Idx) : (tileDims.rhsIdx i κ 0).val = (i 1).val := by
  unfold DotDims.rhsIdx
  rw [dif_neg (show ¬(0 : Fin S512x1024.rank) ∈ tileDims.rhsBatch by decide),
    dif_pos (show (0 : Fin S512x1024.rank) ∈ tileDims.rhsNonContracting by decide)]
  rfl
theorem tileDims_rhs1 (i : S2048x512.Idx) (κ : tileDims.contr.Idx) :
    (tileDims.rhsIdx i κ 1).val = (κ ⟨0, by decide⟩).val :=
  tileDims.rhsIdx_val_of_single rfl i κ

/-- The tile's contraction at `(p, q)`: the matrix product into the zero accumulator is the plain sum over the 1024
    shared columns of the point block's row `p` times the centre block's row `q` (no transpose appears: each operand
    is read along its own row). -/
theorem tileDot_apply (X : FVec Ideal S2048x1024 .bf16) (C : FVec Ideal S512x1024 .bf16) (p : Fin 2048) (q : Fin 512) :
    matmul (F := Ideal) tileDims none X C (constant (F := Ideal) S2048x512 .f32 0x00000000#32) (ix2 p q)
      = ∑ k : Fin 1024, X (ix2 p k) * C (ix2 q k) := by
  simp only [matmul]
  rw [Ideal.matmul_constant_zero_apply, ← Equiv.sum_comp (contrEquiv1 tileDims 1024 rfl rfl).symm]
  refine Finset.sum_congr rfl fun k _ => ?_
  have hk := contrEquiv1_symm_val tileDims 1024 rfl rfl k
  have el : tileDims.lhsIdx (ix2 p q) ((contrEquiv1 tileDims 1024 rfl rfl).symm k) = ix2 p k :=
    funext fun a => Fin.ext (by
      match a with
      | ⟨0, _⟩ => exact tileDims_lhs0 _ _
      | ⟨1, _⟩ => exact (tileDims_lhs1 _ _).trans hk)
  have er : tileDims.rhsIdx (ix2 p q) ((contrEquiv1 tileDims 1024 rfl rfl).symm k) = ix2 q k :=
    funext fun a => Fin.ext (by
      match a with
      | ⟨0, _⟩ => exact tileDims_rhs0 _ _
      | ⟨1, _⟩ => exact (tileDims_rhs1 _ _).trans hk)
  rw [el, er]

/-- What the body stores, at the tile's entry `(p, q)`, from the five blocks it loaded. -/
theorem tile_apply (X : FVec Ideal S2048x1024 .bf16) (C : FVec Ideal S512x1024 .bf16) (a : FVec Ideal S2048x1 .f32)
    (b : FVec Ideal S1x512 .f32) (w : FVec Ideal S1x512 .f32) (p : Fin 2048) (q : Fin 512) :
    k0_pay1 (F := Ideal) X C a b w (ix2 p q)
      = Ideal.exp ((Ideal.ofBits .f32 0x00000000#32 - w (ix2 (0 : Fin 1) q))
          * max ((a (ix2 p (0 : Fin 1)) + b (ix2 (0 : Fin 1) q)) - Ideal.ofBits .f32 0x40000000#32 * ∑ k : Fin 1024, X (ix2 p k) * C (ix2 q k))
              (Ideal.ofBits .f32 0x00000000#32)) := by
  unfold k0_pay1
  simp only [shapeCast_self, exp_apply, mulf_apply, maximumf_apply, subf_apply, addf_apply, broadcast_apply]
  rw [broadcastTo_1b_ab_apply, broadcastTo_a1_ab_apply, broadcastTo_1b_ab_apply, tileDot_apply]
  rfl

end Cert.Rbf.Kernel

end
-- ==== Proof.KernelBlocks.lean ====
/-
  FROM TILES TO THE ARRAY. The grid has 8 × 8 points; point `t` works on the block of 2048 points numbered by its
  first coordinate and the block of 512 centres numbered by its second, and writes the [2048, 512] tile of the result
  at that block position. So the tile's entry `(p, q)` sits at row `block row × 2048 + p` and column
  `block column × 512 + q` of the result, and each of the five input blocks read at a local coordinate is its array
  read at the same global row or column: the point block and the column of squared lengths follow the block row,
  the centre block and the two rows follow the block column. Hence what point `t` writes back is tile `t` of `rbf` of
  the three arguments. The 64 tiles cover the result (the tile of an entry is found by dividing its row by 2048 and
  its column by 512), so after the run the result array is `rbf` everywhere.
-/
import proofs.«167875_j56461640073237_2_alg».proof.Proof.Gen.KernelIdeal.Value
import proofs.«167875_j56461640073237_2_alg».proof.Proof.KernelHost
import proofs.«167875_j56461640073237_2_alg».proof.Proof.KernelBody

noncomputable section

namespace Cert.Rbf.Kernel

open Cert.KernelIdeal Cert.KernelIdeal.Gen Idealize.ShloMosaic Idealize.ShloMosaic.TcCoe Idealize.SL.Sem
open Idealize.ShloMosaic.ValueIdx Cert.Rbf
open Idealize.ShloMosaic.Pipeline (Dat)

variable (m : (ℓ : Loc nD τ sig) → Buf (Elt Ideal) ℓ) (ρ : Dev nD → PrngReg)

theorem zeroOffsets : (![0, 0] : Fin 2 → Nat) = fun _ => 0 := funext fun a => by fin_cases a <;> rfl

/-- The block positions over the 64 grid points, decided: the point block and the column of squared lengths sit at
    the output tile's block row (and block column 0), the centre block at the output tile's block COLUMN (as its
    block row), the two rows at the output's block column (and block row 0); the output's block position stays
    within 8 × 8. -/
theorem blockPositions : ∀ t : Fin cfg0.N,
    win0_0.index t (0 : Fin 2) = win0_5.index t (0 : Fin 2) ∧ win0_0.index t (1 : Fin 2) = 0
    ∧ win0_1.index t (0 : Fin 2) = win0_5.index t (1 : Fin 2) ∧ win0_1.index t (1 : Fin 2) = 0
    ∧ win0_2.index t (0 : Fin 2) = win0_5.index t (0 : Fin 2) ∧ win0_2.index t (1 : Fin 2) = 0
    ∧ win0_3.index t (0 : Fin 2) = 0 ∧ win0_3.index t (1 : Fin 2) = win0_5.index t (1 : Fin 2)
    ∧ win0_4.index t (0 : Fin 2) = 0 ∧ win0_4.index t (1 : Fin 2) = win0_5.index t (1 : Fin 2)
    ∧ win0_5.index t (0 : Fin 2) ≤ 7 ∧ win0_5.index t (1 : Fin 2) ≤ 7 :=
  (by decide +kernel : ∀ t : Fin grid0.N, _)

/-- Every block position of the 8 × 8 box is some point's. -/
theorem blockOnto : ∀ (b0 : Fin 8) (b1 : Fin 8), ∃ t : Fin cfg0.N, win0_5.index t = ![b0.val, b1.val] :=
  (by decide +kernel : ∀ (b0 : Fin 8) (b1 : Fin 8), ∃ t : Fin grid0.N, win0_5.index t = ![b0.val, b1.val])

/-- The result row that the tile's row `p` is, at point `t`. -/
def rowOf (t : Fin cfg0.N) (p : Fin 2048) : Fin 16384 :=
  ⟨win0_5.index t (0 : Fin 2) * 2048 + p.val, by
    obtain ⟨-, -, -, -, -, -, -, -, -, -, h, -⟩ := blockPositions t
    have := p.isLt; omega⟩

/-- The result column that the tile's column `q` is, at point `t`. -/
def colOf (t : Fin cfg0.N) (q : Fin 512) : Fin 4096 :=
  ⟨win0_5.index t (1 : Fin 2) * 512 + q.val, by
    obtain ⟨-, -, -, -, -, -, -, -, -, -, -, h⟩ := blockPositions t
    have := q.isLt; omega⟩

/-- The output tile's entry `(p, q)` is the result's entry `(rowOf p, colOf q)`. -/
theorem outEmb (t : Fin cfg0.N) (p : Fin 2048) (q : Fin 512) :
    ((cfg0.win 5).blk t).view.emb (ix2 p q) = ix2 (rowOf t p) (colOf t q) := by
  funext a; apply Fin.ext
  match a with
  | ⟨0, _⟩ => show win0_5.index t (0 : Fin 2) * 2048 + 1 * p.val = win0_5.index t (0 : Fin 2) * 2048 + p.val; omega
  | ⟨1, _⟩ => show win0_5.index t (1 : Fin 2) * 512 + 1 * q.val = win0_5.index t (1 : Fin 2) * 512 + q.val; omega

/-! ## Each input block, read at a local coordinate, is the argument read at the global one -/

theorem blkPoints (c : Dev nD) (t : Fin cfg0.N) (p : Fin 2048) (k : Fin 1024) :
    iblk m c 0 t (ix2 p k) = argPoints m c (ix2 (rowOf t p) k) := by
  obtain ⟨e0, e1, -⟩ := blockPositions t
  show V m c main_v8 (((cfg0.win 0).blk t).view.emb (ix2 p k)) = _
  rw [entryPoints]
  refine congrArg (argPoints m c) (funext fun a => Fin.ext ?_)
  match a with
  | ⟨0, _⟩ => show win0_0.index t (0 : Fin 2) * 2048 + 1 * p.val = win0_5.index t (0 : Fin 2) * 2048 + p.val; omega
  | ⟨1, _⟩ => show win0_0.index t (1 : Fin 2) * 1024 + 1 * k.val = k.val; omega

theorem blkCentres (c : Dev nD) (t : Fin cfg0.N) (q : Fin 512) (k : Fin 1024) :
    iblk m c 1 t (ix2 q k) = argCentres m c (ix2 (colOf t q) k) := by
  obtain ⟨-, -, e0, e1, -⟩ := blockPositions t
  show V m c main_v9 (((cfg0.win 1).blk t).view.emb (ix2 q k)) = _
  rw [entryCentres]
  refine congrArg (argCentres m c) (funext fun a => Fin.ext ?_)
  match a with
  | ⟨0, _⟩ => show win0_1.index t (0 : Fin 2) * 512 + 1 * q.val = win0_5.index t (1 : Fin 2) * 512 + q.val; omega
  | ⟨1, _⟩ => show win0_1.index t (1 : Fin 2) * 1024 + 1 * k.val = k.val; omega

theorem blkPointSq (c : Dev nD) (t : Fin cfg0.N) (p : Fin 2048) :
    iblk m c 2 t (ix2 p (0 : Fin 1)) = rowSq (argPoints m c) (rowOf t p) := by
  obtain ⟨-, -, -, -, e0, e1, -⟩ := blockPositions t
  show V m c main_v2 (((cfg0.win 2).blk t).view.emb (ix2 p (0 : Fin 1))) = _
  have e : ((cfg0.win 2).blk t).view.emb (ix2 p (0 : Fin 1)) = ix2 (rowOf t p) (0 : Fin 1) := by
    funext a; apply Fin.ext
    match a with
    | ⟨0, _⟩ => show win0_2.index t (0 : Fin 2) * 2048 + 1 * p.val = win0_5.index t (0 : Fin 2) * 2048 + p.val; omega
    | ⟨1, _⟩ => show win0_2.index t (1 : Fin 2) * 1 + 1 * 0 = 0; omega
  rw [e]
  exact entryPointSq m c (rowOf t p) 0

theorem blkCentreSq (c : Dev nD) (t : Fin cfg0.N) (q : Fin 512) :
    iblk m c 3 t (ix2 (0 : Fin 1) q) = rowSq (argCentres m c) (colOf t q) := by
  obtain ⟨-, -, -, -, -, -, e0, e1, -⟩ := blockPositions t
  show V m c main_v6 (((cfg0.win 3).blk t).view.emb (ix2 (0 : Fin 1) q)) = _
  have e : ((cfg0.win 3).blk t).view.emb (ix2 (0 : Fin 1) q) = ix2 (0 : Fin 1) (colOf t q) := by
    funext a; apply Fin.ext
    match a with
    | ⟨0, _⟩ => show win0_3.index t (0 : Fin 2) * 1 + 1 * 0 = 0; omega
    | ⟨1, _⟩ => show win0_3.index t (1 : Fin 2) * 512 + 1 * q.val = win0_5.index t (1 : Fin 2) * 512 + q.val; omega
  rw [e]
  exact entryCentreSq m c 0 (colOf t q)

theorem blkWidths (c : Dev nD) (t : Fin cfg0.N) (q : Fin 512) :
    iblk m c 4 t (ix2 (0 : Fin 1) q) = argWidths m c (ix1 (colOf t q)) := by
  obtain ⟨-, -, -, -, -, -, -, -, e0, e1, -⟩ := blockPositions t
  show V m c main_v7 (((cfg0.win 4).blk t).view.emb (ix2 (0 : Fin 1) q)) = _
  have e : ((cfg0.win 4).blk t).view.emb (ix2 (0 : Fin 1) q) = ix2 (0 : Fin 1) (colOf t q) := by
    funext a; apply Fin.ext
    match a with
    | ⟨0, _⟩ => show win0_4.index t (0 : Fin 2) * 1 + 1 * 0 = 0; omega
    | ⟨1, _⟩ => show win0_4.index t (1 : Fin 2) * 512 + 1 * q.val = win0_5.index t (1 : Fin 2) * 512 + q.val; omega
  rw [e]
  exact entryWidths m c 0 (colOf t q)

/-! ## What a point writes back, the cover, and the array after the run -/

/-- WHAT POINT `t` WRITES BACK is tile `t` of `rbf` of the three arguments: the tile's entry is the exponential of
    `(0 − β) · max (…, 0)` over the global row and column, and `0 − β = −β` on the extended reals. -/
theorem flushedTile (c : Dev nD) (t : Fin cfg0.N) :
    (dats m 0 c).flushed 5 t
      = ((cfg0.win 5).blk t).view.read (Elt Ideal) (rbf (argPoints m c) (argCentres m c) (argWidths m c)) := by
  rw [Cert.KernelIdeal.Value.flushed5]
  unfold out0_5
  rw [View.canon_unit_zero zeroOffsets]
  simp only [View.ld_unit_zero (S := S2048x1024) zeroOffsets, View.ld_unit_zero (S := S512x1024) zeroOffsets,
    View.ld_unit_zero (S := S2048x1) zeroOffsets, View.ld_unit_zero (S := S1x512) zeroOffsets]
  refine funext fun (j : S2048x512.Idx) => ?_
  obtain ⟨p, q, rfl⟩ : ∃ (p : Fin 2048) (q : Fin 512), j = ix2 p q := ⟨j 0, j 1, eq_ix2 j⟩
  show k0_pay1 (F := Ideal) (iblk m c 0 t) (iblk m c 1 t) (iblk m c 2 t) (iblk m c 3 t) (iblk m c 4 t) (ix2 p q)
    = rbf (argPoints m c) (argCentres m c) (argWidths m c) (((cfg0.win 5).blk t).view.emb (ix2 p q))
  rw [outEmb, rbf_apply]
  refine (tile_apply (iblk m c 0 t) (iblk m c 1 t) (iblk m c 2 t) (iblk m c 3 t) (iblk m c 4 t) p q).trans ?_
  rw [blkPointSq, blkCentreSq, blkWidths]
  simp only [blkPoints, blkCentres]
  unfold rbfAt rowDot
  rw [Ideal.ofBits_zero_f32, zero_sub]

/-- An index of the result is in point `t`'s tile iff each coordinate is in the tile's range on its axis. -/
theorem mem_outTile (t : Fin cfg0.N) (i : S16384x4096.Idx) :
    i ∈ ((cfg0.win 5).blk t).view.set ↔ ∀ a : Fin 2, win0_5.index t a * S2048x512.size a ≤ (i a).val
      ∧ (i a).val < win0_5.index t a * S2048x512.size a + S2048x512.size a := by
  show i ∈ ((View.whole main_v10).slice (win0_5.rect t)).set ↔ _
  rw [View.set_slice_whole, Rect.mem_set_unit]
  exact Iff.rfl

/-- Every entry of the result is in some point's tile: the one at block row `row / 2048`, block column `column / 512`. -/
theorem outTiles_cover (i : S16384x4096.Idx) :
    ∃ t : Fin cfg0.N, (cfg0.win 5).flush t = true ∧ i ∈ ((cfg0.win 5).blk t).view.set := by
  have hi0 : (i 0).val < 16384 := (i 0).isLt
  have hi1 : (i 1).val < 4096 := (i 1).isLt
  obtain ⟨t, ht⟩ := blockOnto ⟨(i 0).val / 2048, by omega⟩ ⟨(i 1).val / 512, by omega⟩
  have b0 : win0_5.index t (0 : Fin 2) = (i 0).val / 2048 := congrFun ht 0
  have b1 : win0_5.index t (1 : Fin 2) = (i 1).val / 512 := congrFun ht 1
  refine ⟨t, flush0_5 t, ?_⟩
  rw [mem_outTile]
  intro a
  match a with
  | ⟨0, _⟩ =>
    show win0_5.index t (0 : Fin 2) * 2048 ≤ (i 0).val ∧ (i 0).val < win0_5.index t (0 : Fin 2) * 2048 + 2048
    omega
  | ⟨1, _⟩ =>
    show win0_5.index t (1 : Fin 2) * 512 ≤ (i 1).val ∧ (i 1).val < win0_5.index t (1 : Fin 2) * 512 + 512
    omega

/-- THE RESULT ARRAY after the run is `rbf` of the three arguments. -/
theorem finalArray (c : Dev nD) :
    (dats m 0 c).arrAt 5 cfg0.N = rbf (argPoints m c) (argCentres m c) (argWidths m c) :=
  (dats m 0 c).arrAt_eq_of_cover 5 _ (fun t _ => flushedTile m c t) outTiles_cover

/-- The kernel's run: every weakly fair execution terminates with the result array at `rbf` of the arguments and
    the arguments unchanged. -/
theorem run : θ_run defs (onTc (τ := τ) (main (F := Ideal))) ⟨m, fun _ => 0, ρ⟩ fun r => ∀ c : Dev nD,
      r.2.mem ((c : Thread nD τ).loc main_v10) = rbf (argPoints m c) (argCentres m c) (argWidths m c)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1.trans (finalArray m c), (h c).2⟩)
    (Cert.KernelIdeal.Value.run_blocks m ρ)

end Cert.Rbf.Kernel

end
-- ==== Proof.RefIsRbf.lean ====
/-
  THE REFERENCE COMPUTES `rbf`. The reference's host program squares and row-sums the points and the centres,
  multiplies the points by the TRANSPOSED centres in one matrix product, lays the two vectors of squared lengths out
  as a column and a row, and then works entry by entry. Read at the entry `(p, q)` — one generated read-at-an-index
  lemma per operation, outermost first — every layout step names an index of its operand; those composed indices are
  `(p, k)`, `(q, k)` and `q`, the transposed product's right factor at `(k, q)` being the centres at `(q, k)`. What is
  left is the definition of `rbf` with the operations' names unfolded: the host's negation is the negation, its
  exponential the exponential.
-/
import proofs.«167875_j56461640073237_2_alg».proof.Proof.Gen.ReferenceIdeal.Read
import proofs.«167875_j56461640073237_2_alg».proof.Proof.RbfSpec

noncomputable section

namespace Cert.Rbf.Reference

open Cert.ReferenceIdeal Cert.ReferenceIdeal.Read Idealize.ShloMosaic Idealize.ShloMosaic.ValueIdx Cert.Rbf

/-- The reference's last stage, as a function of the three arguments, is `rbf` of them. -/
theorem stage_eq_rbf (x : (⟨2, ![16384, 1024]⟩ : Shape).Idx → EReal) (c : (⟨2, ![4096, 1024]⟩ : Shape).Idx → EReal)
    (β : (⟨1, ![4096]⟩ : Shape).Idx → EReal) :
    val_main_v20 (F := Ideal) x c β = rbf x c β := by
  funext i
  obtain ⟨p, q, rfl⟩ : ∃ (p : Fin 16384) (q : Fin 4096), i = ix2 p q := ⟨i 0, i 1, eq_ix2 i⟩
  -- the composed indices, by their coordinates
  have eβ : idx_main_v16 (idx_main_v18 (ix2 p q)) = ix1 q :=
    funext fun a => Fin.ext (by match a with | ⟨0, _⟩ => rfl)
  have ex2 : ∀ k : Fin 1024, idx_main_v1 (idx_main_v2 (idx_main_v8 (ix2 p q))) k = ix2 p k := fun k =>
    funext fun a => Fin.ext (by match a with | ⟨0, _⟩ => rfl | ⟨1, _⟩ => rfl)
  have ec2 : ∀ k : Fin 1024, idx_main_v4 (idx_main_v7 (idx_main_v9 (ix2 p q))) k = ix2 q k := fun k =>
    funext fun a => Fin.ext (by match a with | ⟨0, _⟩ => rfl | ⟨1, _⟩ => rfl)
  have el : ∀ k : Fin 1024, lidx_main_v6 (ix2 p q) k = ix2 p k := fun k =>
    funext fun a => Fin.ext (by match a with | ⟨0, _⟩ => rfl | ⟨1, _⟩ => rfl)
  have er : ∀ k : Fin 1024, idx_main_v5 (ridx_main_v6 (ix2 p q) k) = ix2 q k := fun k =>
    funext fun a => Fin.ext (by match a with | ⟨0, _⟩ => rfl | ⟨1, _⟩ => rfl)
  rw [val_main_v20_apply, val_main_v19_apply, val_main_v18_apply, val_main_v17_apply, val_main_v16_apply,
    val_main_v15_apply, val_main_v14_apply, val_main_cst_2_apply, val_main_v13_apply, val_main_v12_apply,
    val_main_v11_apply, val_main_cst_1_apply, val_main_v6_apply, val_main_v10_apply, val_main_v8_apply,
    val_main_v2_apply, val_main_v1_apply, val_main_v9_apply, val_main_v7_apply, val_main_v4_apply,
    val_main_cst_apply, val_main_cst_0_apply, rbf_apply]
  simp only [val_main_v0_apply, val_main_v3_apply, val_main_v5_apply, eβ, ex2, ec2, el, er,
    Ideal.hostUnary_exp_def, Ideal.hostNegf_def, Ideal.negf_def, Ideal.mulf_def, Ideal.addf_def, Ideal.subf_def,
    Ideal.maximumf_def, Ideal.ofBits_def]
  rfl

end Cert.Rbf.Reference

end
-- ==== Proof.lean ====
/-
  A Gaussian radial-basis layer, tiled, against its plain statement. Both programs take 16384 points and 4096
  centres in 1024 dimensions and one width per centre, and return for every pair
      exp (-β_q · max (‖x_p‖² + ‖c_q‖² − 2 · ⟨x_p, c_q⟩, 0)).
  The reference does it with whole arrays: row sums of squares, ONE matrix product of the points with the transposed
  centres, and entrywise operations on [16384, 4096] arrays. The kernel prepares the squared lengths on the host side
  (a column for the points, a row for the centres), changes the two matrices' format (the identity on the extended
  reals), and runs an 8 × 8 grid whose point `(i, j)` contracts the `i`-th block of 2048 points with the `j`-th block
  of 512 centres over all 1024 columns and finishes the [2048, 512] tile entry by entry; it negates a width as
  `0 − β` where the reference negates it.
  On the extended reals the two are the same function, entry by entry, with no rearrangement of any sum — each
  inner product is summed over the same 1024 coordinates in both — so no finiteness of the inputs is used: the only
  law is `0 − β = −β`. The function is `Cert.Rbf.rbf` (Proof/RbfSpec.lean); that the reference's last stage is it is
  Proof/RefIsRbf.lean; that a tile's entry is it at the tile's global row and column is Proof/KernelBody.lean (the tile)
  with Proof/KernelHost.lean (the arrays the tiles are cut from) and Proof/KernelBlocks.lean (tiles to the array, and the
  kernel's run). The three frame claims are the generated frame runs; the idealization rewrote nothing, so the
  kernel's idealized program is its own text read on the extended reals.
-/
import proofs.«167875_j56461640073237_2_alg».proof.Defs
import proofs.«167875_j56461640073237_2_alg».proof.Proof.Gen.Kernel
import proofs.«167875_j56461640073237_2_alg».proof.Proof.Gen.Kernel.Skeleton
import proofs.«167875_j56461640073237_2_alg».proof.Proof.Gen.Kernel.Launch
import proofs.«167875_j56461640073237_2_alg».proof.Proof.Gen.Kernel.Points
import proofs.«167875_j56461640073237_2_alg».proof.Proof.Gen.Kernel.Frame
import proofs.«167875_j56461640073237_2_alg».proof.Proof.Gen.KernelIdeal
import proofs.«167875_j56461640073237_2_alg».proof.Proof.Gen.KernelIdeal.Skeleton
import proofs.«167875_j56461640073237_2_alg».proof.Proof.Gen.KernelIdeal.Launch
import proofs.«167875_j56461640073237_2_alg».proof.Proof.Gen.KernelIdeal.Points
import proofs.«167875_j56461640073237_2_alg».proof.Proof.Gen.KernelIdeal.Frame
import proofs.«167875_j56461640073237_2_alg».proof.Proof.Gen.ReferenceIdeal
import proofs.«167875_j56461640073237_2_alg».proof.Proof.Gen.Pre_finite_inputs
import proofs.«167875_j56461640073237_2_alg».proof.Proof.Gen.KernelIdeal.Value
import proofs.«167875_j56461640073237_2_alg».proof.Proof.Gen.ReferenceIdeal.Run
import proofs.«167875_j56461640073237_2_alg».proof.Proof.Gen.ReferenceIdeal.Read
import proofs.«167875_j56461640073237_2_alg».proof.Proof.KernelBlocks
import proofs.«167875_j56461640073237_2_alg».proof.Proof.RefIsRbf
import Idealize.ShloMosaic.Adequacy
import Idealize.ShloMosaic.Init

noncomputable section

namespace Cert.Proof

open Idealize.ShloMosaic Idealize.ShloMosaic.TcCoe Idealize.SL.Sem

/-- The kernel as printed runs and leaves its arguments as they were: the generated frame run. -/
theorem frame_kernel : Cert.frame_Kernel := fun m ρ _ => Cert.Kernel.Gen.frame m ρ

/-- So does its reading on the extended reals. -/
theorem frame_kernelIdeal : Cert.frame_KernelIdeal := fun m ρ _ => Cert.KernelIdeal.Gen.frame m ρ

/-- The reference's frame is its generated run with the result forgotten. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- On the extended reals the kernel's result array ends at `rbf` of its arguments (the tiles, assembled) and the
    reference's at its last stage of arguments that agree with them, which is `rbf` of them too. -/
theorem algebraic : Cert.algebraic_KernelIdeal_ReferenceIdeal := by
  intro m ρ m' ρ' _ hagree
  refine ⟨fun c => Cert.Rbf.rbf (Cert.Rbf.Kernel.argPoints m c) (Cert.Rbf.Kernel.argCentres m c)
    (Cert.Rbf.Kernel.argWidths m c), Cert.Rbf.Kernel.run m ρ, ?_⟩
  refine (θ_run Cert.ReferenceIdeal.defs _ _).mono (fun _ h c => ⟨(h c).1.trans ?_, (h c).2⟩)
    (Cert.ReferenceIdeal.Value.run (F := Ideal) m' ρ')
  rw [(hagree c).1, (hagree c).2.1, (hagree c).2.2]
  exact (Cert.ReferenceIdeal.Read.val_main_v20_eq _ _ _).trans (Cert.Rbf.Reference.stage_eq_rbf _ _ _)

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
